-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S40 .f32) (main_arg7 : FVec F S800000 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S800000 .f32 := Host.absf main_arg7
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x512 .f32) (main_arg1 : FVec F S512x128 .f32) (main_arg2 : FVec F S128 .f32) (main_arg3 : FVec F S128x40 .f32) (main_arg4 : FVec F S40 .f32) (main_arg5 : IVec S800000 32) (main_arg6 : IVec S800000 32) (main_arg7 : FVec F S800000 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_arg7 main_v13 main_v16
-- ==== Kernel.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S50000x128 : Shape := ⟨2, ![50000, 128]⟩
abbrev S5000x512 : Shape := ⟨2, ![5000, 512]⟩
abbrev S5000x128 : Shape := ⟨2, ![5000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 46
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x40, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x40, .f32⟩
  | .hbm, ⟨37, _⟩ => ⟨S800000x40, .f32⟩
  | .hbm, ⟨38, _⟩ => ⟨S800000x40, .f32⟩
  | .hbm, ⟨39, _⟩ => ⟨S_, .f32⟩
  | .hbm, ⟨40, _⟩ => ⟨S50000x40, .f32⟩
  | .hbm, ⟨41, _⟩ => ⟨S800000x1, .i32⟩
  | .hbm, ⟨42, _⟩ => ⟨S50000x40, .f32⟩
  | .hbm, ⟨43, _⟩ => ⟨S1x40, .f32⟩
  | .hbm, ⟨44, _⟩ => ⟨S50000x40, .f32⟩
  | .hbm, ⟨45, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S5000x512_S512x128_S5000x128_1_0_0_1_n_n_wf : DotDims.WF S5000x512 S512x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x40, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«131083_j4509715661020_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«131083_j4509715661020_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.Payloads.lean ====
/-
  What each kernel body stores, as a function of the blocks it loads, over the extended reals.

  The first body loads a block of rows of the features and the whole first weight matrix, and stores their
  product accumulated into zero: over the extended reals the change of float format before the product is the
  identity, so the stored block is the plain product of the two loaded arrays.

  The second body loads a block of rows of the aggregated features, the bias as one row, and the whole second
  weight matrix; it lays the bias along every row, adds, cuts at zero and multiplies: the stored block is the
  dense layer `relu (A + b) · W` of the loaded arrays.
-/
import proofs.«131083_j4509715661020_2_alg».proof.Proof.Gen.KernelIdeal.Skeleton
import proofs.«131083_j4509715661020_2_alg».proof.Proof.LibRowBlocks

noncomputable section

namespace Cert.KernelIdeal.Dense

open Idealize.ShloMosaic Idealize.ShloMosaic.ValueIdx
open Cert.KernelIdeal Cert.KernelIdeal.Gen Cert.LayoutLib Cert.DenseLib Cert.RowBlocks

/-- The first body's stored value is the product of the loaded row block with the loaded weights. -/
theorem stored_product (x : Vec Ideal S5000x512 .f32) (w : Vec Ideal S512x128 .f32) :
    k0_pay1 (F := Ideal) x w = mm x w := by
  unfold k0_pay1
  exact matmul_eq_mm _ rfl _ _

/-- The second body's stored value is the dense layer of the loaded row block: the loaded bias row laid along
    every row and added, the cut at zero, the product with the loaded weights. -/
theorem stored_layer (a : Vec Ideal S5000x128 .f32) (b : Vec Ideal S1x128 .f32) (w : Vec Ideal S128x40 .f32) :
    k1_pay1 (F := Ideal) a b w = layer a (fun k => b (ix2 (0 : Fin 1) k)) w := by
  unfold k1_pay1
  simp only [shapeCast_self]
  refine (matmul_eq_mm _ rfl _ _).trans ?_
  show mm (maximumf (addf a (broadcastTo S5000x128 b broadcasts_S1x128_S5000x128))
      (broadcast S5000x128 (Scalar.ofBits (F := Ideal) .f32 0x00000000#32))) w = _
  rw [maximumf_splat_zero, broadcastTo_eq_rows, addf_eq_plus]
  rfl

end Cert.KernelIdeal.Dense

end
-- ==== Proof.Blocks.lean ====
/-
  From blocks to whole arrays, for both kernels, at any contents `V` of the buffers when the kernel is entered.

  Each kernel walks ten blocks of 5000 consecutive rows. At point `t` the input that is cut into blocks is read at
  rows `5000 t … 5000 t + 4999`, the other inputs (weights, the bias row) are read whole, and the output block is
  written back at the same rows. A row of a product, and of a dense layer, depends only on the same row of the
  array it is applied to; so what point `t` writes back is rows `5000 t …` of ONE function of the whole arrays —
  the product `X · W` for the first kernel, the layer `relu (A + b) · W` for the second. The ten blocks cover the
  50000 rows (row `r` lies in block `r / 5000`), hence each output array ends holding that function.
-/
import proofs.«131083_j4509715661020_2_alg».proof.Proof.Gen.KernelIdeal.Frame
import proofs.«131083_j4509715661020_2_alg».proof.Proof.Payloads
import Idealize.ShloMosaic.Lib.Pipeline.Value

noncomputable section

namespace Cert.KernelIdeal.Dense

open Idealize.ShloMosaic Idealize.ShloMosaic.TcCoe Idealize.SL.Sem Idealize.ShloMosaic.ValueIdx
open Idealize.ShloMosaic.Pipeline (Dat)
open Cert.KernelIdeal Cert.KernelIdeal.Gen Cert.DenseLib Cert.RowBlocks

variable (V : (c : Dev nD) → (b : Ref sig .tc) → Buf (Elt Ideal) ((c : Thread nD τ).loc b))

theorem zero_offsets : (![0, 0] : Fin 2 → Nat) = fun _ => 0 := funext fun a => by fin_cases a <;> rfl

/-! ## The first kernel: the product with the first weight matrix -/

/-- The block indices at point `t`: the features and the output move down the rows with the point, the weights
    stay at the one block they have. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of rows of the product of the whole arrays. -/
theorem written_back0 (c : Dev nD) (t : Fin cfg0.N) :
    (dat0 V c).flushed 2 t = ((cfg0.win 2).blk t).view.read (Elt Ideal) (mm (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x128) zero_offsets]
  rw [stored_product]
  obtain ⟨e00, e01, e10, e11, e20, e21⟩ := block_indices0 t
  funext j
  show mm (iblk0 V c 0 t) (iblk0 V c 1 t) j = mm (V c main_arg0) (V c main_arg1) (((cfg0.win 2).blk t).view.emb j)
  refine mm_eq_of_row _ _ _ _ j _ ?_ ?_ fun k => ?_
  · funext y
    show V c main_arg1 (((cfg0.win 1).blk t).view.emb y) = V c main_arg1 y
    have e : ((cfg0.win 1).blk t).view.emb y = y := by
      funext a; apply Fin.ext
      match a with
      | ⟨0, _⟩ => show win0_1.index t (0 : Fin 2) * 512 + 1 * (y 0).val = (y 0).val; omega
      | ⟨1, _⟩ => show win0_1.index t (1 : Fin 2) * 128 + 1 * (y 1).val = (y 1).val; omega
    rw [e]
  · show (j 1).val = win0_2.index t (1 : Fin 2) * 128 + 1 * (j 1).val; omega
  · show V c main_arg0 (((cfg0.win 0).blk t).view.emb (ix2 (n0 := 5000) (j 0) k))
      = V c main_arg0 (ix2 (n0 := 50000) ((((cfg0.win 2).blk t).view.emb j) 0) k)
    have e : ((cfg0.win 0).blk t).view.emb (ix2 (n0 := 5000) (j 0) k)
        = ix2 (n0 := 50000) ((((cfg0.win 2).blk t).view.emb j) 0) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 512 + 1 * k.val = k.val; omega
    rw [e]

/-- An index of the output array is in point `t`'s block iff each coordinate is in the block's range. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the output lies in the block of point `r / 5000`. -/
theorem covered0 (i : S50000x128.Idx) :
    ∃ t : Fin cfg0.N, (cfg0.win 2).flush t = true ∧ i ∈ ((cfg0.win 2).blk t).view.set := by
  have hN : grid0.N = 10 := N_0
  have h0 : (i 0).val < 50000 := (i 0).isLt
  have h1 : (i 1).val < 128 := (i 1).isLt
  have hlt : (i 0).val / 5000 < grid0.N := by omega
  obtain ⟨-, -, -, -, e20, e21⟩ := block_indices0 ⟨(i 0).val / 5000, hlt⟩
  have e20' : win0_2.index ⟨(i 0).val / 5000, hlt⟩ (0 : Fin 2) = (i 0).val / 5000 := e20
  refine ⟨⟨(i 0).val / 5000, hlt⟩, flush0_2 _, ?_⟩
  rw [mem_block0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- After the first kernel its output array holds the product of the features with the first weight matrix. -/
theorem product_array (c : Dev nD) : (dat0 V c).arrAt 2 cfg0.N = mm (V c main_arg0) (V c main_arg1) :=
  (dat0 V c).arrAt_eq_of_cover 2 (mm (V c main_arg0) (V c main_arg1)) (fun t _ => written_back0 V c t) covered0

/-! ## The second kernel: bias, cut at zero, product with the second weight matrix -/

/-- The block indices at point `t`: the aggregated features and the output move down the rows with the point,
    the bias row and the weights stay at the one block they have. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is its block of rows of the dense layer of the whole arrays. -/
theorem written_back1 (c : Dev nD) (t : Fin cfg1.N) :
    (dat1 V c).flushed 3 t = ((cfg1.win 3).blk t).view.read (Elt Ideal)
      (layer (V c main_v13) (fun k => V c main_v14 (ix2 (0 : Fin 1) k)) (V c main_arg3)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x40) zero_offsets]
  rw [stored_layer]
  obtain ⟨e00, e01, e10, e11, e20, e21, e30, e31⟩ := block_indices1 t
  funext j
  show layer (iblk1 V c 0 t) (fun k => iblk1 V c 1 t (ix2 (0 : Fin 1) k)) (iblk1 V c 2 t) j
    = layer (V c main_v13) (fun k => V c main_v14 (ix2 (0 : Fin 1) k)) (V c main_arg3) (((cfg1.win 3).blk t).view.emb j)
  refine layer_eq_of_row _ _ _ _ _ _ j _ ?_ ?_ ?_ fun k => ?_
  · funext k
    show V c main_v14 (((cfg1.win 1).blk t).view.emb (ix2 (0 : Fin 1) k)) = V c main_v14 (ix2 (0 : Fin 1) k)
    have e : ((cfg1.win 1).blk t).view.emb (ix2 (0 : Fin 1) k) = ix2 (0 : Fin 1) k := by
      funext a; apply Fin.ext
      match a with
      | ⟨0, _⟩ => show win1_1.index t (0 : Fin 2) * 1 + 1 * 0 = 0; omega
      | ⟨1, _⟩ => show win1_1.index t (1 : Fin 2) * 128 + 1 * k.val = k.val; omega
    rw [e]
  · funext y
    show V c main_arg3 (((cfg1.win 2).blk t).view.emb y) = V c main_arg3 y
    have e : ((cfg1.win 2).blk t).view.emb y = y := by
      funext a; apply Fin.ext
      match a with
      | ⟨0, _⟩ => show win1_2.index t (0 : Fin 2) * 128 + 1 * (y 0).val = (y 0).val; omega
      | ⟨1, _⟩ => show win1_2.index t (1 : Fin 2) * 40 + 1 * (y 1).val = (y 1).val; omega
    rw [e]
  · show (j 1).val = win1_3.index t (1 : Fin 2) * 40 + 1 * (j 1).val; omega
  · show V c main_v13 (((cfg1.win 0).blk t).view.emb (ix2 (n0 := 5000) (j 0) k))
      = V c main_v13 (ix2 (n0 := 50000) ((((cfg1.win 3).blk t).view.emb j) 0) k)
    have e : ((cfg1.win 0).blk t).view.emb (ix2 (n0 := 5000) (j 0) k)
        = ix2 (n0 := 50000) ((((cfg1.win 3).blk t).view.emb j) 0) k := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * k.val = k.val; omega
    rw [e]

/-- An index of the output array is in point `t`'s block iff each coordinate is in the block's range. -/
theorem mem_block1 (t : Fin cfg1.N) (i : S50000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v15).slice (win1_3.rect t)).set ↔ _
  rw [View.set_slice_whole, Rect.mem_set_unit]
  exact Iff.rfl

/-- Row `r` of the output lies in the block of point `r / 5000`. -/
theorem covered1 (i : S50000x40.Idx) :
    ∃ t : Fin cfg1.N, (cfg1.win 3).flush t = true ∧ i ∈ ((cfg1.win 3).blk t).view.set := by
  have hN : grid1.N = 10 := N_1
  have h0 : (i 0).val < 50000 := (i 0).isLt
  have h1 : (i 1).val < 40 := (i 1).isLt
  have hlt : (i 0).val / 5000 < grid1.N := by omega
  obtain ⟨-, -, -, -, -, -, e30, e31⟩ := block_indices1 ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_block1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 40 ≤ (i 1).val
      ∧ (i 1).val < win1_3.index ⟨(i 0).val / 5000, hlt⟩ (1 : Fin 2) * 40 + 40
    omega

/-- After the second kernel its output array holds the dense layer of the aggregated features: the bias row laid
    along every row and added, the cut at zero, the product with the second weight matrix. -/
theorem layer_array (c : Dev nD) :
    (dat1 V c).arrAt 3 cfg1.N = layer (V c main_v13) (fun k => V c main_v14 (ix2 (0 : Fin 1) k)) (V c main_arg3) :=
  (dat1 V c).arrAt_eq_of_cover 3 (layer (V c main_v13) (fun k => V c main_v14 (ix2 (0 : Fin 1) k)) (V c main_arg3))
    (fun t _ => written_back1 V c t) covered1

end Cert.KernelIdeal.Dense

end
-- ==== Proof.KernelRun.lean ====
/-
  The whole program's run, read at every buffer.

  The program is four stretches in order: the first kernel, a line of host operations, the second kernel, a second
  line of host operations. The buffer contents at the boundaries between them are a fold from the launch memory: a
  kernel replaces its output array by what its write-backs leave and keeps every other buffer, a host line gives
  each of its result buffers its operation's value of the buffers before it. Every weakly fair execution runs the
  four stretches to the end, and the final memory holds, at every buffer that outlives a kernel, the contents at the
  last boundary. The thread's state between stretches is "every such buffer, whole, at the boundary's contents",
  beside the generator register and the statement that the core owes nothing; each stretch takes that state at its
  entry boundary to the same state at its exit boundary, so the states chain.
-/
import proofs.«131083_j4509715661020_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread's state at the launch: every buffer that outlives a kernel at its launch contents, the generator
    register at some state, nothing owed. -/
abbrev atLaunch (c : Dev nD) : sProp 𝕄 :=
  iprop(StableHlo.held (c : Thread nD τ) (Pipeline.ucRefs τ sig) (W0 m ρ c) ∗ R c)

/-- The launch element is the pipelines' own, and no core needs anything beside it. -/
theorem launch_element :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  have own_eq : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  imodintro
  isplitl [Hu]
  · iapply own_eq; iexact Hu
  · iempintro

/-- Each stretch is entered from the state the one before it leaves, and the last leaves every buffer at the last
    boundary's contents beside the generator register, the core owing nothing. -/
theorem states_chain :
    Pipeline.Seg.Chains (atLaunch m ρ) (segs m ρ)
      fun c => iprop(Tₙ m ρ c ∗ ∃ W, owes (c.tc : Thread nD τ) (0 : CellTallies nD τ sig Unit) W) := by
  refine ⟨fun _ => .rfl, fun _ => .rfl, fun _ => .rfl, fun _ => .rfl, fun c => ?_⟩
  dsimp only [Pipeline.Seg.post, hseg, Pipeline.HostSeg.ofOps]
  iintro ⟨Hbufs, Hreg, Howes⟩
  isplitr [Howes]
  · isplitl [Hbufs]
    · iexact Hbufs
    · iexact Hreg
  · iexact Howes

/-- What the launch deals every core makes the first state: the buffers at the launch memory are the buffers at the
    first boundary's contents, the register is at the state it was launched with, and the core owes nothing. -/
theorem launch_state :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (atLaunch m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Howes, -, Hreg, -⟩, -⟩
  imodintro
  isplitl [Hbufs]
  · iexact Hbufs
  isplitl [Hreg]
  · iexists _; iexact Hreg
  · iexists ∅; iexact Howes

/-- The last state read against a final memory: a buffer held whole at some contents is at those contents. -/
theorem last_state_read (c : Dev nD) (s' : Phys nD τ sig (Elt F)) :
    iprop(Tₙ m ρ c ∗ SI s') ⊢ |={Set.univ}=>
      iprop(⌜∀ b ∈ Pipeline.ucRefs τ sig, s'.mem.mem (((c : Thread nD τ)).1, b) = W4 m ρ c b⌝ ∗ SI s') := by
  iintro ⟨⟨Hbufs, -⟩, HSI⟩
  unfold StableHlo.held
  imodintro
  iapply (pointsTo_read_all (Pipeline.ucRefs τ sig) (fun b => (((c : Thread nD τ)).1, b)) (W4 m ρ c) s')
  isplitl [Hbufs] <;> iassumption

-- the run theorem's implicit arguments are found by unifying its conclusion with this statement, which takes
-- unfolding plain definitions in a metavariable's type
set_option backward.isDefEq.respectTransparency.types false in
/-- Every weakly fair execution of the program from any memory with zero counters terminates, nothing faulting, and
    the final memory holds, at every buffer that outlives a kernel, the contents at the last boundary. -/
theorem run_boundary : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_element)
    (T₀ := atLaunch m ρ) (Tₙ := Tₙ m ρ)
    (hch := states_chain m ρ)
    (hinit := launch_state m ρ)
    (QY := fun c s => ∀ b ∈ Pipeline.ucRefs τ sig, s.mem (((c : Thread nD τ)).1, b) = W4 m ρ c b)
    (hfin := last_state_read m ρ)
    (hQ := fun s h => h)

end Cert.KernelIdeal.Whole

end
-- ==== Proof.Net.lean ====
/-
  The network both programs compute, as one function of the eight argument arrays over the extended reals.

  A node's new features are an edge-weighted sum over its incoming edges: every edge reads the row of its source
  node (a negative node number counts from the end), scales it by the edge's weight, and adds it into the row of
  its destination node, starting from zero (`aggregate`). The network is two such aggregations around two dense
  layers: the features times the first weights are aggregated; the first bias is added, the result cut at zero and
  multiplied with the second weights (`layer`); that is aggregated again, and the second bias is added to every row.
-/
import proofs.«131083_j4509715661020_2_alg».proof.Proof.Gen.KernelIdeal
import proofs.«131083_j4509715661020_2_alg».proof.Proof.LibRowBlocks

noncomputable section

namespace Cert.KernelIdeal.Net

open Idealize.ShloMosaic Idealize.ShloMosaic.ValueIdx
open Cert.KernelIdeal Cert.KernelIdeal.Gen Cert.DenseLib Cert.RowBlocks

/-- Every edge's source node as a row number, one per row of a column: a negative number has the node count added. -/
def sourceRows (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge-weighted sum over incoming edges of rows of 128 entries. -/
def aggregate128 (rowsOf : (⟨S50000x128, .f32⟩ : BufTy).Contents (Elt Ideal))
    (src dst : (⟨S800000, .i32⟩ : BufTy).Contents (Elt Ideal)) (w : (⟨S800000, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (F := Ideal) (φ := .f32) (broadcastInDim S800000x128 ![0, 1] bcast_S800000x1_S800000x128_0_1
        (broadcastInDim S800000x1 ![0] bcast_S800000_S800000x1_0 w))
      (Host.gather gather_S50000x128_S800000x1_S800000x128_1_0_n_n_0_1_1128 rowsOf (sourceRows src)))

/-- The edge-weighted sum over incoming edges of rows of 40 entries. -/
def aggregate40 (rowsOf : (⟨S50000x40, .f32⟩ : BufTy).Contents (Elt Ideal))
    (src dst : (⟨S800000, .i32⟩ : BufTy).Contents (Elt Ideal)) (w : (⟨S800000, .f32⟩ : BufTy).Contents (Elt Ideal)) :
    (⟨S50000x40, .f32⟩ : BufTy).Contents (Elt Ideal) :=
  Host.scatterAdd (F := Ideal) scatter_S50000x40_S800000x1_S800000x40_1_0_0_1
    (broadcastInDim S50000x40 ![] bcast_S_S50000x40 (constant (F := Ideal) S_ .f32 0x00000000#32))
    (broadcastInDim S800000x1 ![0] bcast_S800000_S800000x1_0 dst)
    (mulf (F := Ideal) (φ := .f32) (broadcastInDim S800000x40 ![0, 1] bcast_S800000x1_S800000x40_0_1
        (broadcastInDim S800000x1 ![0] bcast_S800000_S800000x1_0 w))
      (Host.gather gather_S50000x40_S800000x1_S800000x40_1_0_n_n_0_1_140 rowsOf (sourceRows src)))

/-- The second bias added to every row. -/
def addBias (A : (⟨S50000x40, .f32⟩ : BufTy).Contents (Elt Ideal)) (b : (⟨S40, .f32⟩ : BufTy).Contents (Elt Ideal)) :
    (⟨S50000x40, .f32⟩ : BufTy).Contents (Elt Ideal) :=
  addf (F := Ideal) (φ := .f32) A (broadcastInDim S50000x40 ![0, 1] bcast_S1x40_S50000x40_0_1 (broadcastInDim S1x40 ![1] bcast_S40_S1x40_1 b))

/-- The two-layer network. -/
def net (x : (⟨S50000x512, .f32⟩ : BufTy).Contents (Elt Ideal)) (W1 : (⟨S512x128, .f32⟩ : BufTy).Contents (Elt Ideal))
    (b1 : (⟨S128, .f32⟩ : BufTy).Contents (Elt Ideal)) (W2 : (⟨S128x40, .f32⟩ : BufTy).Contents (Elt Ideal))
    (b2 : (⟨S40, .f32⟩ : BufTy).Contents (Elt Ideal)) (src dst : (⟨S800000, .i32⟩ : BufTy).Contents (Elt Ideal))
    (w : (⟨S800000, .f32⟩ : BufTy).Contents (Elt Ideal)) : (⟨S50000x40, .f32⟩ : BufTy).Contents (Elt Ideal) :=
  addBias (aggregate40 (layer (aggregate128 (mm x W1) src dst w) (fun k => b1 (ix1 k)) W2) src dst w) b2

end Cert.KernelIdeal.Net

end
-- ==== Proof.KernelValue.lean ====
/-
  The kernel program's result as the network of the argument arrays.

  Walking the four stretches of the program: after the first kernel its output array holds the product of the
  features with the first weights, and every other buffer what it held; the first host line then leaves the
  edge-weighted aggregate of that product, the first bias recast as one row, and the arguments untouched; after the
  second kernel its output array holds the dense layer of the aggregate; the second host line aggregates that and
  adds the second bias. So the result buffer ends at `net` of the eight arguments.
-/
import proofs.«131083_j4509715661020_2_alg».proof.Proof.Blocks
import proofs.«131083_j4509715661020_2_alg».proof.Proof.KernelRun
import proofs.«131083_j4509715661020_2_alg».proof.Proof.Net
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx
open Idealize.ShloMosaic.StableHlo
open Cert.KernelIdeal Cert.KernelIdeal.Gen Cert.KernelIdeal.Dense Cert.KernelIdeal.Net Cert.DenseLib Cert.RowBlocks

variable (m : (ℓ : Loc nD τ sig) → Buf (Elt Ideal) ℓ) (ρ : Dev nD → PrngReg)

/-! ## After the first kernel -/

/-- The first kernel's output array holds the product of the features with the first weights. -/
theorem after_first_kernel (c : Dev nD) :
    W1 m ρ c (Proc.devRef .tc main_v0)
      = mm (m ((c.tc : Thread nD τ).loc main_arg0)) (m ((c.tc : Thread nD τ).loc main_arg1)) :=
  (W1_arr m ρ c 2).trans (product_array (V0 m ρ) c)

/-- A buffer that is none of the first kernel's arrays holds what it held at the launch. -/
theorem first_kernel_keeps (c : Dev nD) (b : Ref sig .tc) (hb : ∀ w, Pipeline.arrRef spec0 w ≠ b) :
    W1 m ρ c (Proc.devRef .tc b) = m ((c.tc : Thread nD τ).loc b) :=
  W1_of_ne m ρ c b hb

/-! ## After the first host line -/

/-- The aggregate of the product. -/
theorem after_first_line_aggregate (c : Dev nD) :
    W2 m ρ c (Proc.devRef .tc main_v13)
      = aggregate128 (mm (m ((c.tc : Thread nD τ).loc main_arg0)) (m ((c.tc : Thread nD τ).loc main_arg1)))
          (m ((c.tc : Thread nD τ).loc main_arg5)) (m ((c.tc : Thread nD τ).loc main_arg6)) (m ((c.tc : Thread nD τ).loc main_arg7)) := by
  show StableHlo.after hostOps1 (W1 m ρ c) (Proc.devRef .tc main_v13) = _
  after_results
  rw [after_first_kernel, first_kernel_keeps m ρ c main_arg5 (by decide), first_kernel_keeps m ρ c main_arg6 (by decide),
    first_kernel_keeps m ρ c main_arg7 (by decide)]
  rfl

/-- The first bias, recast as one row. -/
theorem after_first_line_bias (c : Dev nD) :
    W2 m ρ c (Proc.devRef .tc main_v14) = shapeCast S1x128 (m ((c.tc : Thread nD τ).loc main_arg2)) shapeCasts_S128_S1x128 := by
  show StableHlo.after hostOps1 (W1 m ρ c) (Proc.devRef .tc main_v14) = _
  after_results
  rw [first_kernel_keeps m ρ c main_arg2 (by decide)]
  rfl

/-- The second weights, untouched. -/
theorem after_first_line_weights (c : Dev nD) :
    W2 m ρ c (Proc.devRef .tc main_arg3) = m ((c.tc : Thread nD τ).loc main_arg3) := by
  show StableHlo.after hostOps1 (W1 m ρ c) (Proc.devRef .tc main_arg3) = _
  after_results
  exact first_kernel_keeps m ρ c main_arg3 (by decide)

/-! ## After the second kernel -/

/-- The second kernel's output array holds the dense layer of the aggregate: the first bias along every row, the
    cut at zero, the product with the second weights. -/
theorem after_second_kernel (c : Dev nD) :
    W3 m ρ c (Proc.devRef .tc main_v15)
      = layer (aggregate128 (mm (m ((c.tc : Thread nD τ).loc main_arg0)) (m ((c.tc : Thread nD τ).loc main_arg1)))
            (m ((c.tc : Thread nD τ).loc main_arg5)) (m ((c.tc : Thread nD τ).loc main_arg6)) (m ((c.tc : Thread nD τ).loc main_arg7)))
          (fun k => (m ((c.tc : Thread nD τ).loc main_arg2)) (ix1 k)) (m ((c.tc : Thread nD τ).loc main_arg3)) := by
  refine (W3_arr m ρ c 3).trans ((layer_array (V2 m ρ) c).trans ?_)
  show layer (W2 m ρ c (Proc.devRef .tc main_v13)) (fun k => W2 m ρ c (Proc.devRef .tc main_v14) (ix2 (0 : Fin 1) k))
      (W2 m ρ c (Proc.devRef .tc main_arg3)) = _
  rw [after_first_line_aggregate, after_first_line_bias, after_first_line_weights]
  refine congrArg (fun b => layer _ b _) (funext fun k => ?_)
  exact shapeCast_vecRow_apply _ _ (0 : Fin 1) k

/-- An argument that neither kernel writes and no host operation of the first line writes holds, when the second
    host line starts, what it held at the launch. -/
theorem before_second_line_arg4 (c : Dev nD) : W3 m ρ c (Proc.devRef .tc main_arg4) = (m ((c.tc : Thread nD τ).loc main_arg4)) := by
  rw [W3_of_ne m ρ c main_arg4 (by decide)]
  show StableHlo.after hostOps1 (W1 m ρ c) (Proc.devRef .tc main_arg4) = _
  after_results
  exact first_kernel_keeps m ρ c main_arg4 (by decide)
theorem before_second_line_arg5 (c : Dev nD) : W3 m ρ c (Proc.devRef .tc main_arg5) = (m ((c.tc : Thread nD τ).loc main_arg5)) := by
  rw [W3_of_ne m ρ c main_arg5 (by decide)]
  show StableHlo.after hostOps1 (W1 m ρ c) (Proc.devRef .tc main_arg5) = _
  after_results
  exact first_kernel_keeps m ρ c main_arg5 (by decide)
theorem before_second_line_arg6 (c : Dev nD) : W3 m ρ c (Proc.devRef .tc main_arg6) = (m ((c.tc : Thread nD τ).loc main_arg6)) := by
  rw [W3_of_ne m ρ c main_arg6 (by decide)]
  show StableHlo.after hostOps1 (W1 m ρ c) (Proc.devRef .tc main_arg6) = _
  after_results
  exact first_kernel_keeps m ρ c main_arg6 (by decide)
theorem before_second_line_arg7 (c : Dev nD) : W3 m ρ c (Proc.devRef .tc main_arg7) = (m ((c.tc : Thread nD τ).loc main_arg7)) := by
  rw [W3_of_ne m ρ c main_arg7 (by decide)]
  show StableHlo.after hostOps1 (W1 m ρ c) (Proc.devRef .tc main_arg7) = _
  after_results
  exact first_kernel_keeps m ρ c main_arg7 (by decide)

/-! ## After the second host line -/

/-- The result buffer holds the network of the eight arguments. -/
theorem result_value (c : Dev nD) :
    W4 m ρ c (Proc.devRef .tc main_v31)
      = net (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  show StableHlo.after hostOps2 (W3 m ρ c) (Proc.devRef .tc main_v31) = _
  after_results
  rw [after_second_kernel, before_second_line_arg4, before_second_line_arg5, before_second_line_arg6, before_second_line_arg7]
  rfl

/-! ## The run -/

/-- Every weakly fair execution of the kernel program terminates with the result buffer at the network of the
    arguments and the arguments unchanged. -/
theorem run_net : θ_run defs (onTc (τ := τ) (main (F := Ideal))) ⟨m, fun _ => 0, ρ⟩ (fun r => ∀ c : Dev nD,
      r.2.mem ((c.tc : Thread nD τ).loc main_v31)
        = net (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v31 (by decide))).trans (result_value m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_boundary m ρ)

end Cert.KernelIdeal.Whole

end
-- ==== Proof.Reference.lean ====
/-
  The reference program's result as the same network of its argument arrays.

  The reference is a straight line of host operations, and its run ends with the result at the operations' composed
  term. That term is the network read off the kernel program, spelt the host's way: a general dot with one
  contracted axis is the plain product; the first bias broadcast to one row and then down the rows is the bias laid
  along every row; the maximum against a broadcast zero is the cut at zero; so the second general dot is the dense
  layer of the first aggregate. The two aggregations and the final bias are the same host operations in both
  programs.
-/
import proofs.«131083_j4509715661020_2_alg».proof.Proof.Gen.ReferenceIdeal.Run
import proofs.«131083_j4509715661020_2_alg».proof.Proof.Net

set_option maxRecDepth 16384

noncomputable section

namespace Cert.ReferenceIdeal.RefNet

open Idealize.ShloMosaic Idealize.ShloMosaic.TcCoe Idealize.SL.Sem Idealize.ShloMosaic.ValueIdx
open Cert.ReferenceIdeal Cert.ReferenceIdeal.Gen Cert.DenseLib Cert.RowBlocks

variable (m : (ℓ : Loc nD τ sig) → Buf (Elt Ideal) ℓ) (ρ : Dev nD → PrngReg)

/-- Every weakly fair execution of the reference terminates with the result buffer at the network of the arguments
    and the arguments unchanged. -/
theorem run_net : θ_run defs (onTc (τ := τ) (main (F := Ideal))) ⟨m, fun _ => 0, ρ⟩ (fun r => ∀ c : Dev nD,
      r.2.mem ((c.tc : Thread nD τ).loc main_v34)
        = Cert.KernelIdeal.Net.net (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c => ⟨(h c).1.trans ?_, (h c).2⟩) (Cert.ReferenceIdeal.Value.run (F := Ideal) m ρ)
  rw [dotGeneral_eq_mm dot_S50000x512_S512x128_S50000x128_1_0_0_1_n_n rfl,
    dotGeneral_eq_mm dot_S50000x128_S128x40_S50000x40_1_0_0_1_n_n rfl,
    maximumf_bcast_zero,
    broadcastInDim_eq_rows (M := 50000) (N := 128) _ bcast_S128_S1x128_1 bcast_S1x128_S50000x128_0_1]
  rfl

end Cert.ReferenceIdeal.RefNet

end
-- ==== Proof.lean ====
/-
  A two-layer graph network: `out = aggregate (relu (aggregate (x · W1) + b1) · W2) + b2`, where `aggregate` sums,
  into each node's row, the rows of the sources of its incoming edges scaled by the edges' weights.

  The kernel program computes the two dense stages in kernels that walk blocks of 5000 rows and leaves the two
  aggregations and the last bias to host operations; the reference computes every stage with host operations.
  Over the extended reals both end at the same function `net` of the eight argument arrays:

  * a row of a product, or of `relu (A + b) · W`, depends only on the same row of the array it is applied to, so
    the blocks the kernels write back are the rows of one product, and one dense layer, of the whole arrays
    (Proof/Blocks.lean), a change of float format before a product being the identity (Proof/Payloads.lean);
  * the kernel program's four stretches — kernel, host line, kernel, host line — leave the result buffer at `net`
    of the arguments (Proof/KernelRun.lean, Proof/KernelValue.lean);
  * the reference's composed term is `net` in the host's spelling (Proof/Reference.lean).

  No step moves a factor across a sum or cancels anything, so the claim holds at every extended-real input and the
  finiteness of the inputs is never used. The rewriting pass changed no operation, so the kernel program read over
  the extended reals is its own idealization.
-/
import proofs.«131083_j4509715661020_2_alg».proof.Defs
import proofs.«131083_j4509715661020_2_alg».proof.Proof.Gen.Kernel
import proofs.«131083_j4509715661020_2_alg».proof.Proof.Gen.Kernel.Skeleton
import proofs.«131083_j4509715661020_2_alg».proof.Proof.Gen.Kernel.Launch
import proofs.«131083_j4509715661020_2_alg».proof.Proof.Gen.Kernel.Points
import proofs.«131083_j4509715661020_2_alg».proof.Proof.Gen.Kernel.Frame
import proofs.«131083_j4509715661020_2_alg».proof.Proof.Gen.KernelIdeal
import proofs.«131083_j4509715661020_2_alg».proof.Proof.Gen.KernelIdeal.Skeleton
import proofs.«131083_j4509715661020_2_alg».proof.Proof.Gen.KernelIdeal.Launch
import proofs.«131083_j4509715661020_2_alg».proof.Proof.Gen.KernelIdeal.Points
import proofs.«131083_j4509715661020_2_alg».proof.Proof.Gen.KernelIdeal.Frame
import proofs.«131083_j4509715661020_2_alg».proof.Proof.Gen.ReferenceIdeal
import proofs.«131083_j4509715661020_2_alg».proof.Proof.Gen.Pre_finite_inputs
import proofs.«131083_j4509715661020_2_alg».proof.Proof.Gen.ReferenceIdeal.Run
import proofs.«131083_j4509715661020_2_alg».proof.Proof.KernelValue
import proofs.«131083_j4509715661020_2_alg».proof.Proof.Reference
import Idealize.ShloMosaic.Adequacy
import Idealize.ShloMosaic.Init

noncomputable section

namespace Cert.Proof

open Idealize.ShloMosaic Idealize.SL.Sem

/-- The kernel program runs and leaves its arguments as launched, at the word level and over the extended reals. -/
theorem frame_kernel : Cert.frame_Kernel := fun m ρ _ => Cert.Kernel.Gen.frame m ρ
theorem frame_kernel_ideal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the arguments both programs end with the result at `net` of the arguments. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run_net m ρ, ?_⟩
  refine (θ_run Cert.ReferenceIdeal.defs _ _).mono (fun _ h c => ⟨?_, (h c).2⟩) (Cert.ReferenceIdeal.RefNet.run_net m' ρ')
  obtain ⟨a0, a1, a2, a3, a4, a5, a6, a7⟩ := hagree c
  rw [(h c).1, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
